-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S512x1024 : Shape := ⟨2, ![512, 1024]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg7 : FVec F S512 .f32) (main_arg8 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512x512 .f32) (main_arg5 : FVec F S512x1024 .f32) (main_arg6 : FVec F S512 .f32) (main_arg7 : FVec F S512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S65536x512 .f32) (main_arg2 : FVec F S512x512 .f32) (main_arg3 : FVec F S512 .f32) (main_arg4 : FVec F S512x512 .f32) (main_arg5 : FVec F S512x1024 .f32) (main_arg6 : FVec F S512 .f32) (main_arg7 : FVec F S512 .f32) (main_arg8 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1x1024 : Shape := ⟨2, ![1, 1024]⟩
abbrev S1x512 : Shape := ⟨2, ![1, 512]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 27
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x1024, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .bf16⟩
  | .hbm, ⟨13, _⟩ => ⟨S512x512, .f32⟩
  | .hbm, ⟨14, _⟩ => ⟨S512x512, .bf16⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .bf16⟩
  | .hbm, ⟨19, _⟩ => ⟨S512x1024, .bf16⟩
  | .hbm, ⟨20, _⟩ => ⟨S512x1024, .bf16⟩
  | .hbm, ⟨21, _⟩ => ⟨S1024, .f32⟩
  | .hbm, ⟨22, _⟩ => ⟨S1x1024, .f32⟩
  | .hbm, ⟨23, _⟩ => ⟨S1x512, .f32⟩
  | .hbm, ⟨24, _⟩ => ⟨S1x512, .f32⟩
  | .hbm, ⟨25, _⟩ => ⟨S65536x512, .f32⟩
  | .hbm, ⟨26, _⟩ => ⟨S65536x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bitsLt_bf16_f32 : FTy.bits .bf16 < FTy.bits .f32
  concatenates_S512x512_S512x512_S512x1024_d1 : Shape.Concatenates [S512x512, S512x512] S512x1024 1
  concatenates_S512_S512_S1024_d0 : Shape.Concatenates [S512, S512] S1024 0
  shapeCasts_S1024_S1x1024 : S1024.ShapeCasts S1x1024
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x1024_S1024x1024 : S1x1024.Broadcasts S1024x1024
  slices_S1024x1024_o0_0_S1024x512 : S1024x1024.Slices ![0, 0] S1024x512
  slices_S1024x1024_o0_512_S1024x512 : S1024x1024.Slices ![0, 512] S1024x512
  reduces_S1024x512_S1024 : S1024x512.Reduces [1] S1024
  shapeCasts_S1024_S1024x1 : S1024.ShapeCasts S1024x1
  broadcasts_S1024x1_S1024x512 : S1024x1.Broadcasts S1024x512
  broadcasts_S1x512_S1024x512 : S1x512.Broadcasts S1024x512
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S65536x512.size a
  hwx0_7 : ∀ i : grid0.Coords, EltTy.bits .f32 = 32 ∨ (Rect.block (s := S65536x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S65536x512.size a
  hwx0_8 : ∀ i : grid0.Coords, EltTy.bits .f32 = 32 ∨ (Rect.block (s := S65536x512) S1024x512.size (cc0_transform_8 i) (hinb0_8 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S512x1024 : Shape := ⟨2, ![512, 1024]⟩
abbrev S1x512 : Shape := ⟨2, ![1, 512]⟩
abbrev S_ : Shape := ⟨0, ![]⟩
abbrev S65536 : Shape := ⟨1, ![65536]⟩
abbrev S65536x1 : Shape := ⟨2, ![65536, 1]⟩

abbrev nBuf : Space → Nat
  | .hbm => 78
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x1024, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S65536x512, .f32⟩
  | .hbm, ⟨13, _⟩ => ⟨S512x512, .f32⟩
  | .hbm, ⟨14, _⟩ => ⟨S65536x512, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S_, .f32⟩
  | .hbm, ⟨25, _⟩ => ⟨S65536x512, .f32⟩
  | .hbm, ⟨26, _⟩ => ⟨S65536x512, .f32⟩
  | .hbm, ⟨27, _⟩ => ⟨S_, .f32⟩
  | .hbm, ⟨28, _⟩ => ⟨S65536x512, .f32⟩
  | .hbm, ⟨29, _⟩ => ⟨S65536x512, .f32⟩
  | .hbm, ⟨30, _⟩ => ⟨S_, .f32⟩
  | .hbm, ⟨31, _⟩ => ⟨S65536x512, .f32⟩
  | .hbm, ⟨32, _⟩ => ⟨S65536x512, .f32⟩
  | .hbm, ⟨33, _⟩ => ⟨S512x512, .f32⟩
  | .hbm, ⟨34, _⟩ => ⟨S65536x512, .f32⟩
  | .hbm, ⟨35, _⟩ => ⟨S1x512, .f32⟩
  | .hbm, ⟨36, _⟩ => ⟨S65536x512, .f32⟩
  | .hbm, ⟨37, _⟩ => ⟨S65536x512, .f32⟩
  | .hbm, ⟨38, _⟩ => ⟨S512x512, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S_, .f32⟩
  | .hbm, ⟨59, _⟩ => ⟨S65536, .f32⟩
  | .hbm, ⟨60, _⟩ => ⟨S65536x1, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S65536x512, .f32⟩
  | .hbm, ⟨65, _⟩ => ⟨S65536x512, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S65536x512, .f32⟩
  | .hbm, ⟨71, _⟩ => ⟨S65536x512, .f32⟩
  | .hbm, ⟨72, _⟩ => ⟨S1x512, .f32⟩
  | .hbm, ⟨73, _⟩ => ⟨S65536x512, .f32⟩
  | .hbm, ⟨74, _⟩ => ⟨S65536x512, .f32⟩
  | .hbm, ⟨75, _⟩ => ⟨S1x512, .f32⟩
  | .hbm, ⟨76, _⟩ => ⟨S65536x512, .f32⟩
  | .hbm, ⟨77, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.Spec.lean ====
/-
  One step of a liquid time-constant cell followed by a layer norm, written one output ROW at a time over the
  extended reals.

  For a row `x` of the input and a row `h` of the state (512 entries each) the cell forms two affine maps of
  `(x, h)`: a candidate `pre j = Σₖ x k · wIn j k + Σₖ h k · wRec j k + bIn j` and a gate logit
  `z j = Σₖ x k · wTx j k + Σₖ h k · wTh j k + bTau j`. The time constant is `τ j = lo + span · σ(z j)` (σ the logistic
  function), the state moves one explicit Euler step of `h' = (tanh pre − h) / τ`, `y j = h j + dt · (tanh (pre j) − h j) / τ j`,
  and the row `y` is normalised: `(y j − μ) · (var + ε)^(-1/2) · γ j + β j` with `μ` the mean of `y` and `var` the mean of
  `(y − μ)²`. The results are the normalised rows and the time constants.

  Every definition is over plain functions on `Fin 512`, so that a block of 1024 rows and the whole array of 65536 rows
  are read through the same row function. Two regrouping laws are proved here, because the two programs spell them
  differently: the bias may be added before or after the state's part of the candidate (`+` on the extended reals is
  commutative and associative), and `−h + f` is `f − h`. Neither needs finiteness.
-/
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx
open scoped BigOperators

/-! ## The literals, as the words both programs print (never evaluated: the same word stands on both sides) -/

/-- The Euler step `dt` (the f32 nearest to 0.1). -/
def cStep : EReal := Ideal.ofBits .f32 0x3DCCCCCD#32
/-- The smallest time constant, 0.5. -/
def cLo : EReal := Ideal.ofBits .f32 0x3F000000#32
/-- The width of the time constants' range, 4.5. -/
def cSpan : EReal := Ideal.ofBits .f32 0x40900000#32
/-- The row length, 512, as a float. -/
def cWidth : EReal := Ideal.ofBits .f32 0x44000000#32
/-- The layer norm's `ε` (the f32 nearest to 1e-5). -/
def cEps : EReal := Ideal.ofBits .f32 0x3727C5AC#32

/-! ## One entry -/

/-- An affine map of the pair `(x, h)` at one output: the input's part, plus the state's part, plus the bias. -/
def lin (xr hr wx wh : Fin 512 → EReal) (b : EReal) : EReal :=
  ((∑ k : Fin 512, xr k * wx k) + ∑ k : Fin 512, hr k * wh k) + b

/-- The same map with the bias added before the state's part. -/
theorem lin_bias_first (xr hr wx wh : Fin 512 → EReal) (b : EReal) :
    ((∑ k : Fin 512, xr k * wx k) + b) + ∑ k : Fin 512, hr k * wh k = lin xr hr wx wh b := by
  unfold lin; exact add_right_comm _ _ _

/-- The time constant of a gate logit: `lo + span · σ(z)`. -/
def tauOf (z : EReal) : EReal := cLo + cSpan * Ideal.logistic z

/-- The logistic function spelled out as `1 / (1 + e^(−z))` is the logistic function. -/
theorem logistic_spelled (z : EReal) : Ideal.div 1 (1 + Ideal.exp (-z)) = Ideal.logistic z := rfl

/-- One explicit Euler step of `h' = (tanh pre − h) / τ(z)` from `h`. -/
def euler (pre z h : EReal) : EReal := h + cStep * Ideal.div (Ideal.tanh pre - h) (tauOf z)

/-- The same step with the difference written `−h + tanh pre`. -/
theorem euler_neg_add (pre z h : EReal) :
    h + cStep * Ideal.div (-h + Ideal.tanh pre) (tauOf z) = euler pre z h := by
  unfold euler; rw [add_comm (-h), ← sub_eq_add_neg]

/-! ## One row -/

/-- The mean of a row of 512 entries. -/
def mean (y : Fin 512 → EReal) : EReal := Ideal.div (∑ k : Fin 512, y k) cWidth

/-- The layer norm of a row at entry `j`, with that entry's scale `g` and shift `b`. -/
def layerNorm (y : Fin 512 → EReal) (g b : EReal) (j : Fin 512) : EReal :=
  (y j - mean y) * Ideal.rsqrt (mean (fun k => (y k - mean y) * (y k - mean y)) + cEps) * g + b

/-- The row of the state after the Euler step, before normalisation. `wIn j k` multiplies `x k` and `wRec j k`
    multiplies `h k` in candidate `j`; `wTx j k` and `wTh j k` do so in gate logit `j`. -/
def stateRow (xr hr : Fin 512 → EReal) (wIn wRec wTx wTh : Fin 512 → Fin 512 → EReal) (bIn bTau : Fin 512 → EReal)
    (j : Fin 512) : EReal :=
  euler (lin xr hr (wIn j) (wRec j) (bIn j)) (lin xr hr (wTx j) (wTh j) (bTau j)) (hr j)

/-- The row of time constants. -/
def tauRow (xr hr : Fin 512 → EReal) (wTx wTh : Fin 512 → Fin 512 → EReal) (bTau : Fin 512 → EReal) (j : Fin 512) : EReal :=
  tauOf (lin xr hr (wTx j) (wTh j) (bTau j))

/-! ## The whole arrays -/

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- The first coordinate of a rank-2 index, at its literal extent. -/
def fst2 {a b : Nat} (i : (⟨2, ![a, b]⟩ : Shape).Idx) : Fin a := ⟨(i 0).val, idx2_lt0 i⟩
/-- The second coordinate of a rank-2 index, at its literal extent. -/
def snd2 {a b : Nat} (i : (⟨2, ![a, b]⟩ : Shape).Idx) : Fin b := ⟨(i 1).val, (i 1).isLt⟩

/-- Column `k` of the left half of a 1024-wide axis. -/
def lo (k : Fin 512) : Fin 1024 := ⟨k.val, by have := k.isLt; omega⟩
/-- Column `k` of the right half of a 1024-wide axis. -/
def hi (k : Fin 512) : Fin 1024 := ⟨k.val + 512, by have := k.isLt; omega⟩

/-- Row `r` of a matrix with 512 columns. -/
def row {n : Nat} (X : A2 n 512) (r : Fin n) : Fin 512 → EReal := fun k => X (ix2 r k)
/-- A square weight matrix stored output-major, curried. -/
def sq (W : A2 512 512) : Fin 512 → Fin 512 → EReal := fun j k => W (ix2 j k)
/-- The gate's weights on the input: the left half of each output's 1024 columns. -/
def gateX (W : A2 512 1024) : Fin 512 → Fin 512 → EReal := fun j k => W (ix2 j (lo k))
/-- The gate's weights on the state: the right half. -/
def gateH (W : A2 512 1024) : Fin 512 → Fin 512 → EReal := fun j k => W (ix2 j (hi k))
/-- A vector, curried. -/
def vec (b : A1 512) : Fin 512 → EReal := fun j => b (ix1 j)

/-- The normalised new state, as one function of the nine argument arrays. -/
def newState (X H : A2 65536 512) (Win : A2 512 512) (bIn : A1 512) (Wrec : A2 512 512) (Wtau : A2 512 1024)
    (bTau gamma beta : A1 512) : A2 65536 512 := fun i =>
  layerNorm (stateRow (row X (fst2 i)) (row H (fst2 i)) (sq Win) (sq Wrec) (gateX Wtau) (gateH Wtau) (vec bIn) (vec bTau))
    (vec gamma (snd2 i)) (vec beta (snd2 i)) (snd2 i)

/-- The time constants, as one function of the argument arrays they depend on. -/
def timeConst (X H : A2 65536 512) (Wtau : A2 512 1024) (bTau : A1 512) : A2 65536 512 := fun i =>
  tauRow (row X (fst2 i)) (row H (fst2 i)) (gateX Wtau) (gateH Wtau) (vec bTau) (snd2 i)

end Cert.Spec

end
-- ==== Proof.Payload.lean ====
/-
  The kernel body's two stored blocks read at an entry: row `p` of a block of 1024 rows goes through the row functions of the
  specification.

  The body forms ONE 1024-wide intermediate per row, `x·Wx + h·Wh + bias`, whose left half is the candidate's pre-activation and
  whose right half is the gate's logit; everything after it is entrywise in the row except the two lane sums of the layer norm.
  So the proof reads, in order: a matrix product into a zero accumulator at an entry as a sum over the contracted axis; the fused
  intermediate at an entry; the block of updated states at an entry (the Euler step of its two halves); a lane sum at a row as
  the sum of the row; the centred block at an entry; and then the stored block is the layer norm of the row of updated states.
-/
import proofs.«143263_j35021163331819_2_alg».proof.Proof.KernelIdealValueP
import proofs.«143263_j35021163331819_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Spec

/-! ## A product of a [1024, 512] block with a [512, 1024] matrix, at an entry -/

/-- The body's one contraction record: rows of the left operand against columns of the right. -/
abbrev D : DotDims S1024x512 S512x1024 S1024x1024 := dot_S1024x512_S512x1024_S1024x1024_1_0_0_1_n_n

theorem lhs_row (i : S1024x1024.Idx) (q : D.contr.Idx) : (D.lhsIdx i q 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhs_col (i : S1024x1024.Idx) (q : D.contr.Idx) : (D.lhsIdx i q 1).val = (q ⟨0, by decide⟩).val :=
  D.lhsIdx_val_of_single rfl i q
theorem rhs_row (i : S1024x1024.Idx) (q : D.contr.Idx) : (D.rhsIdx i q 0).val = (q ⟨0, by decide⟩).val :=
  D.rhsIdx_val_of_single rfl i q
theorem rhs_col (i : S1024x1024.Idx) (q : D.contr.Idx) : (D.rhsIdx i q 1).val = (i 1).val := by
  unfold DotDims.rhsIdx
  rw [dif_neg (show ¬(1 : Fin S512x1024.rank) ∈ D.rhsBatch by decide), dif_pos (show (1 : Fin S512x1024.rank) ∈ D.rhsNonContracting by decide)]
  rfl

/-- Entry `(p, n)` of the product into a zero accumulator is the sum over the 512 contracted positions. -/
theorem product_at (L : FVec Ideal S1024x512 .bf16) (R : FVec Ideal S512x1024 .bf16) (p n : Fin 1024) :
    FloatOps.matmul D none L R (constant S1024x1024 .f32 0x00000000#32) (ix2 p n) = ∑ k : Fin 512, L (ix2 p k) * R (ix2 k n) := by
  rw [Ideal.matmul_constant_zero_apply, ← Equiv.sum_comp (ValueIdx.contrEquiv1 D 512 rfl rfl).symm]
  refine Finset.sum_congr rfl fun k _ => ?_
  have hk := ValueIdx.contrEquiv1_symm_val D 512 rfl rfl k
  have el : D.lhsIdx (ix2 p n) ((ValueIdx.contrEquiv1 D 512 rfl rfl).symm k) = ix2 p k := funext fun a => Fin.ext (by
    match a with
    | ⟨0, _⟩ => exact lhs_row _ _
    | ⟨1, _⟩ => exact (lhs_col _ _).trans hk)
  have er : D.rhsIdx (ix2 p n) ((ValueIdx.contrEquiv1 D 512 rfl rfl).symm k) = ix2 k n := funext fun a => Fin.ext (by
    match a with
    | ⟨0, _⟩ => exact (rhs_row _ _).trans hk
    | ⟨1, _⟩ => exact rhs_col _ _)
  rw [el, er]

/-! ## The fused intermediate -/

/-- Entry `(p, n)` of the 1024-wide intermediate: the input's row against column `n` of its fused weights, plus the state's row
    against column `n` of its fused weights, plus entry `n` of the fused bias. (Rounding to bf16 is the identity here.) -/
theorem fused_at (X H : Vec Ideal S1024x512 .f32) (Wx Wh : Vec Ideal S512x1024 .bf16) (B : Vec Ideal S1x1024 .f32) (p n : Fin 1024) :
    k0_pay4 (F := Ideal) X H Wx Wh B (ix2 p n)
      = ((∑ k : Fin 512, X (ix2 p k) * Wx (ix2 k n)) + ∑ k : Fin 512, H (ix2 p k) * Wh (ix2 k n)) + B (ix2 (0 : Fin 1) n) := by
  unfold k0_pay4
  show (FloatOps.matmul (F := Ideal) D none (truncf (F := Ideal) .bf16 X bitsLt_bf16_f32) (shapeCast S512x1024 Wx shapeCasts_S512x1024_S512x1024) (constant S1024x1024 .f32 0x00000000#32) (ix2 p n)
      + FloatOps.matmul (F := Ideal) D none (truncf (F := Ideal) .bf16 H bitsLt_bf16_f32) (shapeCast S512x1024 Wh shapeCasts_S512x1024_S512x1024) (constant S1024x1024 .f32 0x00000000#32) (ix2 p n))
      + broadcastTo S1024x1024 (shapeCast S1x1024 B shapeCasts_S1x1024_S1x1024) broadcasts_S1x1024_S1024x1024 (ix2 p n) = _
  rw [shapeCast_self, shapeCast_self, shapeCast_self, product_at, product_at]
  rw [broadcastTo_apply B broadcasts_S1x1024_S1024x1024 (ix2 p n) (ix2 (0 : Fin 1) n) (fun a => match a with
    | ⟨0, _⟩ => by show (0 : Nat) = if (1 : Nat) = 1 then 0 else p.val; rw [if_pos rfl]
    | ⟨1, _⟩ => by show n.val = if (1024 : Nat) = 1 then 0 else n.val; rw [if_neg (by decide)])]
  rfl

/-! ## The block of updated states -/

/-- Row `p` of the updated states, through the specification: the row functions applied to row `p` of the two data blocks and
    to the fused weights read column-wise. -/
def specRow (P0 P1 : Vec Ideal S1024x512 .f32) (P2 P3 : Vec Ideal S512x1024 .bf16) (P4 : Vec Ideal S1x1024 .f32) (p : Fin 1024) :
    Fin 512 → EReal :=
  stateRow (fun k => P1 (ix2 p k)) (fun k => P0 (ix2 p k))
    (fun j k => P2 (ix2 k (lo j))) (fun j k => P3 (ix2 k (lo j)))
    (fun j k => P2 (ix2 k (hi j))) (fun j k => P3 (ix2 k (hi j)))
    (fun j => P4 (ix2 (0 : Fin 1) (lo j))) (fun j => P4 (ix2 (0 : Fin 1) (hi j)))

/-- The block of updated states before normalisation, as the body's vector operations of the loaded blocks: the state's block
    plus `dt` times (tanh of the intermediate's left half minus the state's block) over the time constants of its right half. -/
def stateBlk (P0 P1 : Vec Ideal S1024x512 .f32) (P2 P3 : Vec Ideal S512x1024 .bf16) (P4 : Vec Ideal S1x1024 .f32) :
    FVec Ideal S1024x512 .f32 :=
  addf P0 (mulf (broadcast S1024x512 (Scalar.ofBits .f32 0x3DCCCCCD#32)) (divf (subf (tanh (extractStridedSlice S1024x512 ![0, 0] (k0_pay4 P1 P0 P2 P3 P4) slices_S1024x1024_o0_0_S1024x512)) P0) (addf (broadcast S1024x512 (Scalar.ofBits .f32 0x3F000000#32)) (mulf (broadcast S1024x512 (Scalar.ofBits .f32 0x40900000#32)) (logistic (extractStridedSlice S1024x512 ![0, 512] (k0_pay4 P1 P0 P2 P3 P4) slices_S1024x1024_o0_512_S1024x512))))))

/-- The left half of the intermediate at `(p, j)` is its entry `(p, lo j)`. -/
theorem left_half_at (w : FVec Ideal S1024x1024 .f32) (p : Fin 1024) (j : Fin 512) :
    extractStridedSlice S1024x512 ![0, 0] w slices_S1024x1024_o0_0_S1024x512 (ix2 p j) = w (ix2 p (lo j)) :=
  extractStridedSlice_apply ![0, 0] w slices_S1024x1024_o0_0_S1024x512 (ix2 p j) (ix2 p (lo j)) (fun a => match a with
    | ⟨0, _⟩ => by show p.val = 0 + p.val; omega
    | ⟨1, _⟩ => by show j.val = 0 + j.val; omega)

/-- The right half of the intermediate at `(p, j)` is its entry `(p, hi j)`. -/
theorem right_half_at (w : FVec Ideal S1024x1024 .f32) (p : Fin 1024) (j : Fin 512) :
    extractStridedSlice S1024x512 ![0, 512] w slices_S1024x1024_o0_512_S1024x512 (ix2 p j) = w (ix2 p (hi j)) :=
  extractStridedSlice_apply ![0, 512] w slices_S1024x1024_o0_512_S1024x512 (ix2 p j) (ix2 p (hi j)) (fun a => match a with
    | ⟨0, _⟩ => by show p.val = 0 + p.val; omega
    | ⟨1, _⟩ => by show j.val + 512 = 512 + j.val; omega)

/-- Entry `(p, j)` of the block of updated states is the specification's Euler step of row `p`. -/
theorem stateBlk_at (P0 P1 : Vec Ideal S1024x512 .f32) (P2 P3 : Vec Ideal S512x1024 .bf16) (P4 : Vec Ideal S1x1024 .f32)
    (p : Fin 1024) (j : Fin 512) : stateBlk P0 P1 P2 P3 P4 (ix2 p j) = specRow P0 P1 P2 P3 P4 p j := by
  show FloatOps.addf (P0 (ix2 p j)) (FloatOps.mulf (Scalar.ofBits (F := Ideal) .f32 0x3DCCCCCD#32) (FloatOps.divf (FloatOps.subf (FloatOps.tanh (extractStridedSlice S1024x512 ![0, 0] (k0_pay4 P1 P0 P2 P3 P4) slices_S1024x1024_o0_0_S1024x512 (ix2 p j))) (P0 (ix2 p j))) (FloatOps.addf (Scalar.ofBits (F := Ideal) .f32 0x3F000000#32) (FloatOps.mulf (Scalar.ofBits (F := Ideal) .f32 0x40900000#32) (FloatOps.logistic (extractStridedSlice S1024x512 ![0, 512] (k0_pay4 P1 P0 P2 P3 P4) slices_S1024x1024_o0_512_S1024x512 (ix2 p j))))))) = _
  rw [left_half_at, right_half_at, fused_at, fused_at]
  rfl

/-! ## The lane sums and the centred block -/

/-- The body's lane sum of a block: one entry per row. -/
def rowSum (v : FVec Ideal S1024x512 .f32) : FVec Ideal S1024 .f32 :=
  multiReduction .add [1] S1024 v 0x00000000#32 reduces_S1024x512_S1024 (.inl rfl) rfl

/-- The lane sum at row `p` is the sum of the row's 512 entries. -/
theorem rowSum_at (v : FVec Ideal S1024x512 .f32) (p : Fin 1024) : rowSum v (ix1 p) = ∑ k : Fin 512, v (ix2 p k) := by
  unfold rowSum
  refine (Ideal.multiReduction_add_single v 0x00000000#32 reduces_S1024x512_S1024 (.inl rfl) rfl (ix1 p)).trans ?_
  refine Finset.sum_congr rfl fun k _ => ?_
  exact congrArg v (funext fun a => Fin.ext (by match a with | ⟨0, _⟩ => rfl | ⟨1, _⟩ => rfl))

/-- A block minus its rows' means, as the body spells it: the lane sum as a column, divided by the row length, spread back
    over the columns, subtracted. -/
def centredBlk (y : FVec Ideal S1024x512 .f32) : FVec Ideal S1024x512 .f32 :=
  subf y (broadcastTo S1024x512 (divf (shapeCast S1024x1 (rowSum y) shapeCasts_S1024_S1024x1) (broadcast S1024x1 (Scalar.ofBits .f32 0x44000000#32))) broadcasts_S1024x1_S1024x512)

/-- Entry `(p, k)` of the centred block: the entry minus its row's sum over the row length. -/
theorem centredBlk_at (y : FVec Ideal S1024x512 .f32) (p : Fin 1024) (k : Fin 512) :
    centredBlk y (ix2 p k) = y (ix2 p k) - Ideal.div (rowSum y (ix1 p)) cWidth := by
  have eb : broadcastTo S1024x512 (divf (shapeCast S1024x1 (rowSum y) shapeCasts_S1024_S1024x1) (broadcast S1024x1 (Scalar.ofBits .f32 0x44000000#32))) broadcasts_S1024x1_S1024x512 (ix2 p k)
      = (divf (shapeCast S1024x1 (rowSum y) shapeCasts_S1024_S1024x1) (broadcast S1024x1 (Scalar.ofBits .f32 0x44000000#32))) (ix2 p (0 : Fin 1)) :=
    broadcastTo_apply _ broadcasts_S1024x1_S1024x512 (ix2 p k) (ix2 p (0 : Fin 1)) (fun a => match a with
      | ⟨0, _⟩ => by show p.val = if (1024 : Nat) = 1 then 0 else p.val; rw [if_neg (by decide)]
      | ⟨1, _⟩ => by show (0 : Nat) = if (1 : Nat) = 1 then 0 else k.val; rw [if_pos rfl])
  have es : shapeCast S1024x1 (rowSum y) shapeCasts_S1024_S1024x1 (ix2 p (0 : Fin 1)) = rowSum y (ix1 p) :=
    shapeCast_apply (rowSum y) shapeCasts_S1024_S1024x1 (ix2 p (0 : Fin 1)) (ix1 p)
      (by rw [Shape.rowMajor_val_one, Shape.rowMajor_val_two]; show p.val = p.val * 1 + 0; omega)
  show FloatOps.subf (y (ix2 p k)) (broadcastTo S1024x512 (divf (shapeCast S1024x1 (rowSum y) shapeCasts_S1024_S1024x1) (broadcast S1024x1 (Scalar.ofBits .f32 0x44000000#32))) broadcasts_S1024x1_S1024x512 (ix2 p k)) = _
  rw [eb]
  show FloatOps.subf (y (ix2 p k)) (FloatOps.divf (shapeCast S1024x1 (rowSum y) shapeCasts_S1024_S1024x1 (ix2 p (0 : Fin 1))) (Scalar.ofBits (F := Ideal) .f32 0x44000000#32)) = _
  rw [es]
  rfl

/-! ## The stored blocks -/

/-- The updated state at one entry, as the stored expression reads its operands (the generated index maps of the block index). -/
def cellAt (P0 P1 : Vec Ideal S1024x512 .f32) (P2 P3 : Vec Ideal S512x1024 .bf16) (P4 : Vec Ideal S1x1024 .f32) (y : S1024x512.Idx) : EReal :=
  FloatOps.addf (F := Ideal) (φ := .f32) (P0 (ValueP.ix7_0 y)) (FloatOps.mulf (Scalar.ofBits (F := Ideal) .f32 0x3DCCCCCD#32) (FloatOps.divf (FloatOps.subf (FloatOps.tanh ((k0_pay4 P1 P0 P2 P3 P4) (ValueP.ix7_1 y))) (P0 (ValueP.ix7_2 y))) (FloatOps.addf (Scalar.ofBits (F := Ideal) .f32 0x3F000000#32) (FloatOps.mulf (Scalar.ofBits (F := Ideal) .f32 0x40900000#32) (FloatOps.logistic ((k0_pay4 P1 P0 P2 P3 P4) (ValueP.ix7_3 y)))))))

/-- The first output's block over the names above: (entry − row mean) · rsqrt(row variance + ε) · scale + shift, the two
    means as lane sums over the row length. -/
theorem stored_shape (P0 P1 : Vec Ideal S1024x512 .f32) (P2 P3 : Vec Ideal S512x1024 .bf16) (P4 : Vec Ideal S1x1024 .f32)
    (P5 P6 : Vec Ideal S1x512 .f32) (y : S1024x512.Idx) :
    ValueP.E7 (F := Ideal) P0 P1 P2 P3 P4 P5 P6 y
      = FloatOps.addf (F := Ideal) (φ := .f32) (FloatOps.mulf (FloatOps.mulf (FloatOps.subf (cellAt P0 P1 P2 P3 P4 y)
            (FloatOps.divf (rowSum (stateBlk P0 P1 P2 P3 P4) (ValueP.ix7_4 y)) (Scalar.ofBits (F := Ideal) .f32 0x44000000#32)))
          (FloatOps.rsqrt (FloatOps.addf (FloatOps.divf (rowSum (mulf (centredBlk (stateBlk P0 P1 P2 P3 P4)) (centredBlk (stateBlk P0 P1 P2 P3 P4))) (ValueP.ix7_5 y)) (Scalar.ofBits (F := Ideal) .f32 0x44000000#32)) (Scalar.ofBits (F := Ideal) .f32 0x3727C5AC#32))))
          (P5 (ValueP.ix7_6 y))) (P6 (ValueP.ix7_7 y)) := rfl

section
variable (p : Fin 1024) (q : Fin 512)
theorem at_same : ValueP.ix7_0 (ix2 p q) = ix2 p q := funext fun a => Fin.ext (by match a with | ⟨0, _⟩ => rfl | ⟨1, _⟩ => rfl)
theorem at_same' : ValueP.ix7_2 (ix2 p q) = ix2 p q := funext fun a => Fin.ext (by match a with | ⟨0, _⟩ => rfl | ⟨1, _⟩ => rfl)
theorem at_lo : ValueP.ix7_1 (ix2 p q) = ix2 p (lo q) := funext fun a => Fin.ext (by match a with | ⟨0, _⟩ => rfl | ⟨1, _⟩ => rfl)
theorem at_hi : ValueP.ix7_3 (ix2 p q) = ix2 p (hi q) := funext fun a => Fin.ext (by match a with | ⟨0, _⟩ => rfl | ⟨1, _⟩ => rfl)
theorem at_row : ValueP.ix7_4 (ix2 p q) = ix1 p := funext fun a => Fin.ext (by match a with | ⟨0, _⟩ => rfl)
theorem at_row' : ValueP.ix7_5 (ix2 p q) = ix1 p := funext fun a => Fin.ext (by match a with | ⟨0, _⟩ => rfl)
theorem at_col : ValueP.ix7_6 (ix2 p q) = ix2 (0 : Fin 1) q := funext fun a => Fin.ext (by match a with | ⟨0, _⟩ => rfl | ⟨1, _⟩ => rfl)
theorem at_col' : ValueP.ix7_7 (ix2 p q) = ix2 (0 : Fin 1) q := funext fun a => Fin.ext (by match a with | ⟨0, _⟩ => rfl | ⟨1, _⟩ => rfl)
theorem at_hi8 : ValueP.ix8_0 (ix2 p q) = ix2 p (hi q) := funext fun a => Fin.ext (by match a with | ⟨0, _⟩ => rfl | ⟨1, _⟩ => rfl)
end

/-- The stored expression's own reading of the updated state at `(p, q)` is the specification's. -/
theorem cellAt_eq (P0 P1 : Vec Ideal S1024x512 .f32) (P2 P3 : Vec Ideal S512x1024 .bf16) (P4 : Vec Ideal S1x1024 .f32)
    (p : Fin 1024) (q : Fin 512) : cellAt P0 P1 P2 P3 P4 (ix2 p q) = specRow P0 P1 P2 P3 P4 p q := by
  unfold cellAt
  rw [at_same, at_same', at_lo, at_hi, fused_at, fused_at]
  rfl

/-- The block the body stores to the first output, at row `p` and column `q`: the layer norm of the row of updated states, the
    fused weights read column-wise (`lo j` the candidate's column, `hi j` the gate's). `P0` is the state's block, `P1` the input's. -/
theorem newState_block (P0 P1 : Vec Ideal S1024x512 .f32) (P2 P3 : Vec Ideal S512x1024 .bf16) (P4 : Vec Ideal S1x1024 .f32)
    (P5 P6 : Vec Ideal S1x512 .f32) (p : Fin 1024) (q : Fin 512) :
    ValueP.E7 (F := Ideal) P0 P1 P2 P3 P4 P5 P6 (ix2 p q)
      = layerNorm (stateRow (fun k => P1 (ix2 p k)) (fun k => P0 (ix2 p k))
          (fun j k => P2 (ix2 k (lo j))) (fun j k => P3 (ix2 k (lo j)))
          (fun j k => P2 (ix2 k (hi j))) (fun j k => P3 (ix2 k (hi j)))
          (fun j => P4 (ix2 (0 : Fin 1) (lo j))) (fun j => P4 (ix2 (0 : Fin 1) (hi j))))
          (P5 (ix2 (0 : Fin 1) q)) (P6 (ix2 (0 : Fin 1) q)) q := by
  have hY : ∀ j : Fin 512, stateBlk P0 P1 P2 P3 P4 (ix2 p j) = specRow P0 P1 P2 P3 P4 p j := fun j => stateBlk_at P0 P1 P2 P3 P4 p j
  have hμ : rowSum (stateBlk P0 P1 P2 P3 P4) (ix1 p) = ∑ k : Fin 512, specRow P0 P1 P2 P3 P4 p k :=
    (rowSum_at _ p).trans (Finset.sum_congr rfl fun k _ => hY k)
  have hc : ∀ k : Fin 512, centredBlk (stateBlk P0 P1 P2 P3 P4) (ix2 p k) = specRow P0 P1 P2 P3 P4 p k - mean (specRow P0 P1 P2 P3 P4 p) := fun k => by
    rw [centredBlk_at, hY k, hμ]; rfl
  have hv : rowSum (mulf (centredBlk (stateBlk P0 P1 P2 P3 P4)) (centredBlk (stateBlk P0 P1 P2 P3 P4))) (ix1 p)
      = ∑ k : Fin 512, (specRow P0 P1 P2 P3 P4 p k - mean (specRow P0 P1 P2 P3 P4 p)) * (specRow P0 P1 P2 P3 P4 p k - mean (specRow P0 P1 P2 P3 P4 p)) :=
    (rowSum_at _ p).trans (Finset.sum_congr rfl fun k _ => by
      show centredBlk (stateBlk P0 P1 P2 P3 P4) (ix2 p k) * centredBlk (stateBlk P0 P1 P2 P3 P4) (ix2 p k) = _
      rw [hc k])
  rw [stored_shape, at_row, at_row', at_col, at_col', hμ, hv, cellAt_eq]
  rfl

/-- The block the body stores to the second output: the row of time constants. Here `P0` is the input's block, `P1` the state's. -/
theorem timeConst_block (P0 P1 : Vec Ideal S1024x512 .f32) (P2 P3 : Vec Ideal S512x1024 .bf16) (P4 : Vec Ideal S1x1024 .f32)
    (p : Fin 1024) (q : Fin 512) :
    ValueP.E8 (F := Ideal) P0 P1 P2 P3 P4 (ix2 p q)
      = tauRow (fun k => P0 (ix2 p k)) (fun k => P1 (ix2 p k))
          (fun j k => P2 (ix2 k (hi j))) (fun j k => P3 (ix2 k (hi j))) (fun j => P4 (ix2 (0 : Fin 1) (hi j))) q := by
  show FloatOps.addf (F := Ideal) (φ := .f32) (Scalar.ofBits (F := Ideal) .f32 0x3F000000#32) (FloatOps.mulf (Scalar.ofBits (F := Ideal) .f32 0x40900000#32) (FloatOps.logistic ((k0_pay4 P0 P1 P2 P3 P4) (ValueP.ix8_0 (ix2 p q))))) = _
  rw [at_hi8, fused_at]
  rfl

end Cert.KernelIdeal.Payload

end
-- ==== Proof.HostPrefix.lean ====
/-
  What the region finds in the arrays the host operations before it wrote, entry by entry, in terms of the argument arrays: the two
  fused weight matrices (a transposed square matrix beside a transposed half of the gate's matrix), the fused bias, and the
  scale and shift as rows.

  Each array is first written once as the composed term of the operations that build it (slices, transposes, conversions, which are
  the identity on the extended reals, concatenations and reshapes) over the argument arrays as launched; the entry facts then read
  that term at an index one operation at a time, outermost first. A concatenation along the 1024-wide axis reads its first piece at a
  column below 512 and its second piece, 512 columns back, at a column from 512 on; a transpose swaps the two coordinates; a slice
  adds its offsets; a reshape between [n] and [1, n] keeps the row-major position.
-/
import proofs.«143263_j35021163331819_2_alg».proof.Proof.Gen.KernelIdeal.Frame
import proofs.«143263_j35021163331819_2_alg».proof.Proof.Spec
import Idealize.ShloMosaic.Lib.ValueIdx
import Idealize.ShloMosaic.Lib.Pipeline.Value

noncomputable section

namespace Cert.KernelIdeal.Prefix

open Cert.KernelIdeal Cert.KernelIdeal.Gen Idealize.ShloMosaic Idealize.ShloMosaic.TcCoe Idealize.SL.Sem Idealize.ShloMosaic.ValueIdx Cert.Spec

variable (m : (ℓ : Loc nD τ sig) → Buf (Elt Ideal) ℓ)

/-! ## The arrays as composed terms over the argument arrays -/

/-- The input's fused weights as the host operations write them: the candidate's matrix transposed beside the
    transposed left half of the gate's matrix, both converted. -/
theorem fusedX_eq (c : Dev nD) :
    (V m c main_v10 : S512x1024.Idx → EReal)
      = concatenate S512x1024 1
          [⟨S512x512, (truncf .bf16 (transpose S512x512 [1, 0] (m ((c : Thread nD τ).loc main_arg2) : FVec Ideal S512x512 .f32)
              transposes_S512x512_S512x512_1_0) bitsLt_bf16_f32 : FVec Ideal S512x512 .bf16)⟩,
           ⟨S512x512, (truncf .bf16 (transpose S512x512 [1, 0]
              (extractStridedSlice S512x512 ![0, 0] (m ((c : Thread nD τ).loc main_arg5) : FVec Ideal S512x1024 .f32) slices_S512x1024_S512x512_0_0)
              transposes_S512x512_S512x512_1_0) bitsLt_bf16_f32 : FVec Ideal S512x512 .bf16)⟩]
          concatenates_S512x512_S512x512_S512x1024_d1 := by
  dsimp only [Gen.V, Gen.hostOps0]
  after_results

/-- The state's fused weights as the host operations write them: the recurrent matrix transposed beside the
    transposed right half of the gate's matrix, both converted. -/
theorem fusedH_eq (c : Dev nD) :
    (V m c main_v11 : S512x1024.Idx → EReal)
      = concatenate S512x1024 1
          [⟨S512x512, (truncf .bf16 (transpose S512x512 [1, 0] (m ((c : Thread nD τ).loc main_arg4) : FVec Ideal S512x512 .f32)
              transposes_S512x512_S512x512_1_0) bitsLt_bf16_f32 : FVec Ideal S512x512 .bf16)⟩,
           ⟨S512x512, (truncf .bf16 (transpose S512x512 [1, 0]
              (extractStridedSlice S512x512 ![0, 512] (m ((c : Thread nD τ).loc main_arg5) : FVec Ideal S512x1024 .f32) slices_S512x1024_S512x512_0_512)
              transposes_S512x512_S512x512_1_0) bitsLt_bf16_f32 : FVec Ideal S512x512 .bf16)⟩]
          concatenates_S512x512_S512x512_S512x1024_d1 := by
  dsimp only [Gen.V, Gen.hostOps0]
  after_results

/-- The fused bias as the host operations write it: the two biases end to end, as a row. -/
theorem bias_eq (c : Dev nD) :
    (V m c main_v13 : S1x1024.Idx → EReal)
      = shapeCast S1x1024
          (concatenate S1024 0
            [⟨S512, (m ((c : Thread nD τ).loc main_arg3) : S512.Idx → EReal)⟩,
             ⟨S512, (m ((c : Thread nD τ).loc main_arg6) : S512.Idx → EReal)⟩]
            concatenates_S512_S512_S1024_d0)
          shapeCasts_S1024_S1x1024 := by
  dsimp only [Gen.V, Gen.hostOps0]
  after_results
  rfl

/-- The scale as the host operations write it: the vector as a row. -/
theorem scale_eq (c : Dev nD) :
    (V m c main_v14 : S1x512.Idx → EReal)
      = shapeCast S1x512 (m ((c : Thread nD τ).loc main_arg7) : S512.Idx → EReal) shapeCasts_S512_S1x512 := by
  dsimp only [Gen.V, Gen.hostOps0]
  after_results
  rfl

/-- The shift as the host operations write it: the vector as a row. -/
theorem shift_eq (c : Dev nD) :
    (V m c main_v15 : S1x512.Idx → EReal)
      = shapeCast S1x512 (m ((c : Thread nD τ).loc main_arg8) : S512.Idx → EReal) shapeCasts_S512_S1x512 := by
  dsimp only [Gen.V, Gen.hostOps0]
  after_results
  rfl

/-! ## Two reads shared by the entry facts -/

/-- A converted transpose of a square matrix at row `k`, column `j` is the matrix at row `j`, column `k`. -/
theorem convTranspose_at (W : FVec Ideal S512x512 .f32) (k j : Fin 512) :
    (truncf .bf16 (transpose S512x512 [1, 0] W transposes_S512x512_S512x512_1_0) bitsLt_bf16_f32 : FVec Ideal S512x512 .bf16) (ix2 k j)
      = W (ix2 j k) := by
  refine (truncf_apply _ bitsLt_bf16_f32 (ix2 k j)).trans ?_
  exact transpose_apply [1, 0] W transposes_S512x512_S512x512_1_0 (ix2 k j) (ix2 j k) (fun b => match b with
    | ⟨0, _⟩ => rfl
    | ⟨1, _⟩ => rfl)

/-- A vector reshaped to a row, at the row's column `j`, is the vector at `j`. -/
theorem row_at (v : S512.Idx → EReal) (j : Fin 512) :
    shapeCast S1x512 v shapeCasts_S512_S1x512 (ix2 (0 : Fin 1) j) = v (ix1 j) := by
  refine shapeCast_apply v shapeCasts_S512_S1x512 (ix2 (0 : Fin 1) j) (ix1 j) ?_
  rw [Shape.rowMajor_val_one, Shape.rowMajor_val_two]
  show j.val = 0 * 512 + j.val
  omega

/-! ## The entry facts -/

/-- Left half of the input's fused weights: the candidate's weight matrix transposed. -/
theorem fusedX_lo (c : Dev nD) (k j : Fin 512) :
    (V m c main_v10 : S512x1024.Idx → EReal) (ix2 k (lo j)) = (m ((c : Thread nD τ).loc main_arg2) : S512x512.Idx → EReal) (ix2 j k) := by
  rw [fusedX_eq]
  refine (concatenate_pair_apply_left (t := S512x1024) (s₁ := S512x512) (s₂ := S512x512) 1 _ _
      concatenates_S512x512_S512x512_S512x1024_d1 (ix2 k (lo j)) rfl (ix2 k j) (fun b => match b with
        | ⟨0, _⟩ => rfl
        | ⟨1, _⟩ => rfl)).trans ?_
  exact convTranspose_at _ k j

/-- Right half of the input's fused weights: the left half of the gate's matrix, transposed. -/
theorem fusedX_hi (c : Dev nD) (k j : Fin 512) :
    (V m c main_v10 : S512x1024.Idx → EReal) (ix2 k (hi j)) = (m ((c : Thread nD τ).loc main_arg5) : S512x1024.Idx → EReal) (ix2 j (lo k)) := by
  rw [fusedX_eq]
  refine (concatenate_pair_apply_right (t := S512x1024) (s₁ := S512x512) (s₂ := S512x512) 1 _ _
      concatenates_S512x512_S512x512_S512x1024_d1 (ix2 k (hi j)) rfl rfl (ix2 k j) (fun b => match b with
        | ⟨0, _⟩ => fun _ => rfl
        | ⟨1, _⟩ => fun hb => absurd rfl hb) (by show j.val + 512 = j.val + 512; rfl)).trans ?_
  refine (convTranspose_at _ k j).trans ?_
  exact extractStridedSlice_apply ![0, 0] _ slices_S512x1024_S512x512_0_0 (ix2 j k) (ix2 j (lo k)) (fun a => match a with
    | ⟨0, _⟩ => by show j.val = 0 + j.val; omega
    | ⟨1, _⟩ => by show k.val = 0 + k.val; omega)

/-- Left half of the state's fused weights: the recurrent matrix transposed. -/
theorem fusedH_lo (c : Dev nD) (k j : Fin 512) :
    (V m c main_v11 : S512x1024.Idx → EReal) (ix2 k (lo j)) = (m ((c : Thread nD τ).loc main_arg4) : S512x512.Idx → EReal) (ix2 j k) := by
  rw [fusedH_eq]
  refine (concatenate_pair_apply_left (t := S512x1024) (s₁ := S512x512) (s₂ := S512x512) 1 _ _
      concatenates_S512x512_S512x512_S512x1024_d1 (ix2 k (lo j)) rfl (ix2 k j) (fun b => match b with
        | ⟨0, _⟩ => rfl
        | ⟨1, _⟩ => rfl)).trans ?_
  exact convTranspose_at _ k j

/-- Right half of the state's fused weights: the right half of the gate's matrix, transposed. -/
theorem fusedH_hi (c : Dev nD) (k j : Fin 512) :
    (V m c main_v11 : S512x1024.Idx → EReal) (ix2 k (hi j)) = (m ((c : Thread nD τ).loc main_arg5) : S512x1024.Idx → EReal) (ix2 j (hi k)) := by
  rw [fusedH_eq]
  refine (concatenate_pair_apply_right (t := S512x1024) (s₁ := S512x512) (s₂ := S512x512) 1 _ _
      concatenates_S512x512_S512x512_S512x1024_d1 (ix2 k (hi j)) rfl rfl (ix2 k j) (fun b => match b with
        | ⟨0, _⟩ => fun _ => rfl
        | ⟨1, _⟩ => fun hb => absurd rfl hb) (by show j.val + 512 = j.val + 512; rfl)).trans ?_
  refine (convTranspose_at _ k j).trans ?_
  exact extractStridedSlice_apply ![0, 512] _ slices_S512x1024_S512x512_0_512 (ix2 j k) (ix2 j (hi k)) (fun a => match a with
    | ⟨0, _⟩ => by show j.val = 0 + j.val; omega
    | ⟨1, _⟩ => by show k.val + 512 = 512 + k.val; omega)

/-- Left half of the fused bias: the candidate's bias. -/
theorem bias_lo (c : Dev nD) (j : Fin 512) :
    (V m c main_v13 : S1x1024.Idx → EReal) (ix2 (0 : Fin 1) (lo j)) = (m ((c : Thread nD τ).loc main_arg3) : S512.Idx → EReal) (ix1 j) := by
  rw [bias_eq]
  refine (shapeCast_apply _ shapeCasts_S1024_S1x1024 (ix2 (0 : Fin 1) (lo j)) (ix1 (lo j)) ?_).trans ?_
  · rw [Shape.rowMajor_val_one, Shape.rowMajor_val_two]
    show (lo j).val = 0 * 1024 + (lo j).val
    omega
  · exact concatenate_pair_apply_left (t := S1024) (s₁ := S512) (s₂ := S512) 0 _ _ concatenates_S512_S512_S1024_d0
      (ix1 (lo j)) rfl (ix1 j) (fun b => match b with
        | ⟨0, _⟩ => rfl)

/-- Right half of the fused bias: the gate's bias. -/
theorem bias_hi (c : Dev nD) (j : Fin 512) :
    (V m c main_v13 : S1x1024.Idx → EReal) (ix2 (0 : Fin 1) (hi j)) = (m ((c : Thread nD τ).loc main_arg6) : S512.Idx → EReal) (ix1 j) := by
  rw [bias_eq]
  refine (shapeCast_apply _ shapeCasts_S1024_S1x1024 (ix2 (0 : Fin 1) (hi j)) (ix1 (hi j)) ?_).trans ?_
  · rw [Shape.rowMajor_val_one, Shape.rowMajor_val_two]
    show (hi j).val = 0 * 1024 + (hi j).val
    omega
  · exact concatenate_pair_apply_right (t := S1024) (s₁ := S512) (s₂ := S512) 0 _ _ concatenates_S512_S512_S1024_d0
      (ix1 (hi j)) rfl rfl (ix1 j) (fun b => match b with
        | ⟨0, _⟩ => fun hb => absurd rfl hb) (by show j.val + 512 = j.val + 512; rfl)

/-- The scale as a row. -/
theorem scale_at (c : Dev nD) (j : Fin 512) :
    (V m c main_v14 : S1x512.Idx → EReal) (ix2 (0 : Fin 1) j) = (m ((c : Thread nD τ).loc main_arg7) : S512.Idx → EReal) (ix1 j) := by
  rw [scale_eq]
  exact row_at _ j

/-- The shift as a row. -/
theorem shift_at (c : Dev nD) (j : Fin 512) :
    (V m c main_v15 : S1x512.Idx → EReal) (ix2 (0 : Fin 1) j) = (m ((c : Thread nD τ).loc main_arg8) : S512.Idx → EReal) (ix1 j) := by
  rw [shift_eq]
  exact row_at _ j

end Cert.KernelIdeal.Prefix

end
-- ==== Proof.Blocks.lean ====
/-
  From blocks to arrays: what a grid point writes back is its block of the specification's whole-array function, the 64 blocks
  cover the 65536 rows, so each output array ends as that function of the argument arrays.

  Grid point `t` loads rows `1024 t … 1024 t + 1023` of the input and of the state (their windows sit at block `(t, 0)`) and the
  whole fused weights, fused bias, scale and shift (block `(0, 0)`). What it stores to each output is, entry by entry, the
  specification's row function of those loads; the loaded rows are rows of the argument arrays, and the fused arrays read
  column-wise are the argument weights and biases. Row `r` of an output lies in the block of point `r / 1024`.
-/
import proofs.«143263_j35021163331819_2_alg».proof.Proof.Payload
import proofs.«143263_j35021163331819_2_alg».proof.Proof.HostPrefix
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-- The zero offsets of a whole-block rectangle, as a constant function. -/
theorem zero_offsets : (![0, 0] : Fin 2 → Nat) = fun _ => 0 := funext fun a => by fin_cases a <;> rfl

/-- The printed index maps in closed form, decided over the 64 grid points: the row-blocked windows (input, state and the two
    outputs) are at block `(t, 0)`, the fused weights, bias, scale and shift at block `(0, 0)`. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of the input's block at point `t` is row `1024 t + p` of the input. -/
theorem input_block (c : Dev nD) (t : Fin cfg0.N) (p : Fin 1024) (k : Fin 512) (r : Fin 65536)
    (hr : r.val = 1024 * t.val + p.val) :
    (iblk m c 0 t : Vec Ideal S1024x512 .f32) (ix2 p k)
      = (m ((c : Thread nD τ).loc main_arg0) : S65536x512.Idx → EReal) (ix2 r k) := by
  obtain ⟨e0, e1, -⟩ := index_maps t
  unfold iblk
  rw [View.read_apply]
  show V m c main_arg0 _ = _
  rw [V_main_arg0]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- Row `p` of the state's block at point `t` is row `1024 t + p` of the state. -/
theorem state_block (c : Dev nD) (t : Fin cfg0.N) (p : Fin 1024) (k : Fin 512) (r : Fin 65536)
    (hr : r.val = 1024 * t.val + p.val) :
    (iblk m c 1 t : Vec Ideal S1024x512 .f32) (ix2 p k)
      = (m ((c : Thread nD τ).loc main_arg1) : S65536x512.Idx → EReal) (ix2 r k) := by
  obtain ⟨-, -, e0, e1, -⟩ := index_maps t
  unfold iblk
  rw [View.read_apply]
  show V m c main_arg1 _ = _
  rw [V_main_arg1]
  congr 1
  funext a
  apply Fin.ext
  match a with
  | ⟨0, _⟩ => show win0_1.index t (0 : Fin 2) * 1024 + 1 * p.val = r.val; rw [e0, hr]; omega
  | ⟨1, _⟩ => show win0_1.index t (1 : Fin 2) * 512 + 1 * k.val = k.val; rw [e1]; omega

/-- The window on the input's fused weights is the whole array at every point. -/
theorem fusedX_block (c : Dev nD) (t : Fin cfg0.N) (a : Fin 512) (b : Fin 1024) :
    (iblk m c 2 t : Vec Ideal S512x1024 .bf16) (ix2 a b) = (V m c main_v10 : S512x1024.Idx → EReal) (ix2 a b) := by
  obtain ⟨-, -, -, -, e0, e1, -⟩ := index_maps t
  unfold iblk
  rw [View.read_apply]
  show V m c main_v10 _ = _
  congr 1
  funext d
  apply Fin.ext
  match d with
  | ⟨0, _⟩ => show win0_2.index t (0 : Fin 2) * 512 + 1 * a.val = a.val; rw [e0]; omega
  | ⟨1, _⟩ => show win0_2.index t (1 : Fin 2) * 1024 + 1 * b.val = b.val; rw [e1]; omega

/-- The window on the state's fused weights is the whole array at every point. -/
theorem fusedH_block (c : Dev nD) (t : Fin cfg0.N) (a : Fin 512) (b : Fin 1024) :
    (iblk m c 3 t : Vec Ideal S512x1024 .bf16) (ix2 a b) = (V m c main_v11 : S512x1024.Idx → EReal) (ix2 a b) := by
  obtain ⟨-, -, -, -, -, -, e0, e1, -⟩ := index_maps t
  unfold iblk
  rw [View.read_apply]
  show V m c main_v11 _ = _
  congr 1
  funext d
  apply Fin.ext
  match d with
  | ⟨0, _⟩ => show win0_3.index t (0 : Fin 2) * 512 + 1 * a.val = a.val; rw [e0]; omega
  | ⟨1, _⟩ => show win0_3.index t (1 : Fin 2) * 1024 + 1 * b.val = b.val; rw [e1]; omega

/-- The window on the fused bias is the whole row at every point. -/
theorem bias_block (c : Dev nD) (t : Fin cfg0.N) (a : Fin 1) (b : Fin 1024) :
    (iblk m c 4 t : Vec Ideal S1x1024 .f32) (ix2 a b) = (V m c main_v13 : S1x1024.Idx → EReal) (ix2 a b) := by
  obtain ⟨-, -, -, -, -, -, -, -, e0, e1, -⟩ := index_maps t
  unfold iblk
  rw [View.read_apply]
  show V m c main_v13 _ = _
  congr 1
  funext d
  apply Fin.ext
  match d with
  | ⟨0, _⟩ => show win0_4.index t (0 : Fin 2) * 1 + 1 * a.val = a.val; rw [e0]; omega
  | ⟨1, _⟩ => show win0_4.index t (1 : Fin 2) * 1024 + 1 * b.val = b.val; rw [e1]; omega

/-- The window on the scale is the whole row at every point. -/
theorem scale_block (c : Dev nD) (t : Fin cfg0.N) (a : Fin 1) (b : Fin 512) :
    (iblk m c 5 t : Vec Ideal S1x512 .f32) (ix2 a b) = (V m c main_v14 : S1x512.Idx → EReal) (ix2 a b) := by
  obtain ⟨-, -, -, -, -, -, -, -, -, -, e0, e1, -⟩ := index_maps t
  unfold iblk
  rw [View.read_apply]
  show V m c main_v14 _ = _
  congr 1
  funext d
  apply Fin.ext
  match d with
  | ⟨0, _⟩ => show win0_5.index t (0 : Fin 2) * 1 + 1 * a.val = a.val; rw [e0]; omega
  | ⟨1, _⟩ => show win0_5.index t (1 : Fin 2) * 512 + 1 * b.val = b.val; rw [e1]; omega

/-- The window on the shift is the whole row at every point. -/
theorem shift_block (c : Dev nD) (t : Fin cfg0.N) (a : Fin 1) (b : Fin 512) :
    (iblk m c 6 t : Vec Ideal S1x512 .f32) (ix2 a b) = (V m c main_v15 : S1x512.Idx → EReal) (ix2 a b) := by
  obtain ⟨-, -, -, -, -, -, -, -, -, -, -, -, e0, e1, -⟩ := index_maps t
  unfold iblk
  rw [View.read_apply]
  show V m c main_v15 _ = _
  congr 1
  funext d
  apply Fin.ext
  match d with
  | ⟨0, _⟩ => show win0_6.index t (0 : Fin 2) * 1 + 1 * a.val = a.val; rw [e0]; omega
  | ⟨1, _⟩ => show win0_6.index t (1 : Fin 2) * 512 + 1 * b.val = b.val; rw [e1]; omega

/-- The block stored to the first output, at row `p` and column `q`, when row `p` of the loaded input and state blocks is row `r`
    of the arrays `X` and `H` and the loaded weights, bias, scale and shift are the fused forms of the argument arrays: the
    specification's new state at `(r, q)`. -/
theorem newState_entry (x0 x1 : Vec Ideal S1024x512 .f32) (x2 x3 : Vec Ideal S512x1024 .bf16) (x4 : Vec Ideal S1x1024 .f32)
    (x5 x6 : Vec Ideal S1x512 .f32)
    (X H : A2 65536 512) (Win : A2 512 512) (bIn : A1 512) (Wrec : A2 512 512) (Wtau : A2 512 1024) (bTau gamma beta : A1 512)
    (p : Fin 1024) (q : Fin 512) (r : Fin 65536)
    (h0 : ∀ k : Fin 512, x0 (ix2 p k) = X (ix2 r k))
    (h1 : ∀ k : Fin 512, x1 (ix2 p k) = H (ix2 r k))
    (h2l : ∀ j k : Fin 512, x2 (ix2 k (lo j)) = Win (ix2 j k))
    (h3l : ∀ j k : Fin 512, x3 (ix2 k (lo j)) = Wrec (ix2 j k))
    (h2h : ∀ j k : Fin 512, x2 (ix2 k (hi j)) = Wtau (ix2 j (lo k)))
    (h3h : ∀ j k : Fin 512, x3 (ix2 k (hi j)) = Wtau (ix2 j (hi k)))
    (h4l : ∀ j : Fin 512, x4 (ix2 (0 : Fin 1) (lo j)) = bIn (ix1 j))
    (h4h : ∀ j : Fin 512, x4 (ix2 (0 : Fin 1) (hi j)) = bTau (ix1 j))
    (h5 : ∀ j : Fin 512, x5 (ix2 (0 : Fin 1) j) = gamma (ix1 j))
    (h6 : ∀ j : Fin 512, x6 (ix2 (0 : Fin 1) j) = beta (ix1 j)) :
    out0_7 x0 x1 x2 x3 x4 x5 x6 (ix2 p q) = newState X H Win bIn Wrec Wtau bTau gamma beta (ix2 r q) := by
  unfold out0_7
  simp only [View.ld_unit_zero (S := S1024x512) zero_offsets, View.ld_unit_zero (S := S512x1024) zero_offsets,
    View.ld_unit_zero (S := S1x1024) zero_offsets, View.ld_unit_zero (S := S1x512) zero_offsets]
  refine (ValueP.canon7_eq x1 x0 x2 x3 x4 x5 x6 (ix2 p q)).trans ?_
  refine (Payload.newState_block x1 x0 x2 x3 x4 x5 x6 p q).trans ?_
  have e0 : (fun k : Fin 512 => x0 (ix2 p k)) = row X r := funext h0
  have e1 : (fun k : Fin 512 => x1 (ix2 p k)) = row H r := funext h1
  have e2l : (fun j k : Fin 512 => x2 (ix2 k (lo j))) = Spec.sq Win := funext fun j => funext fun k => h2l j k
  have e3l : (fun j k : Fin 512 => x3 (ix2 k (lo j))) = Spec.sq Wrec := funext fun j => funext fun k => h3l j k
  have e2h : (fun j k : Fin 512 => x2 (ix2 k (hi j))) = gateX Wtau := funext fun j => funext fun k => h2h j k
  have e3h : (fun j k : Fin 512 => x3 (ix2 k (hi j))) = gateH Wtau := funext fun j => funext fun k => h3h j k
  have e4l : (fun j : Fin 512 => x4 (ix2 (0 : Fin 1) (lo j))) = vec bIn := funext h4l
  have e4h : (fun j : Fin 512 => x4 (ix2 (0 : Fin 1) (hi j))) = vec bTau := funext h4h
  rw [e0, e1, e2l, e3l, e2h, e3h, e4l, e4h, h5 q, h6 q]
  rfl

/-- The block stored to the second output, under the same reading of the loaded blocks: the specification's time constant at
    `(r, q)`. -/
theorem timeConst_entry (x0 x1 : Vec Ideal S1024x512 .f32) (x2 x3 : Vec Ideal S512x1024 .bf16) (x4 : Vec Ideal S1x1024 .f32)
    (x5 x6 : Vec Ideal S1x512 .f32)
    (X H : A2 65536 512) (Wtau : A2 512 1024) (bTau : A1 512)
    (p : Fin 1024) (q : Fin 512) (r : Fin 65536)
    (h0 : ∀ k : Fin 512, x0 (ix2 p k) = X (ix2 r k))
    (h1 : ∀ k : Fin 512, x1 (ix2 p k) = H (ix2 r k))
    (h2h : ∀ j k : Fin 512, x2 (ix2 k (hi j)) = Wtau (ix2 j (lo k)))
    (h3h : ∀ j k : Fin 512, x3 (ix2 k (hi j)) = Wtau (ix2 j (hi k)))
    (h4h : ∀ j : Fin 512, x4 (ix2 (0 : Fin 1) (hi j)) = bTau (ix1 j)) :
    out0_8 x0 x1 x2 x3 x4 x5 x6 (ix2 p q) = timeConst X H Wtau bTau (ix2 r q) := by
  unfold out0_8
  simp only [View.ld_unit_zero (S := S1024x512) zero_offsets, View.ld_unit_zero (S := S512x1024) zero_offsets,
    View.ld_unit_zero (S := S1x1024) zero_offsets]
  refine (ValueP.canon8_eq x0 x1 x2 x3 x4 (ix2 p q)).trans ?_
  refine (Payload.timeConst_block x0 x1 x2 x3 x4 p q).trans ?_
  have e0 : (fun k : Fin 512 => x0 (ix2 p k)) = row X r := funext h0
  have e1 : (fun k : Fin 512 => x1 (ix2 p k)) = row H r := funext h1
  have e2h : (fun j k : Fin 512 => x2 (ix2 k (hi j))) = gateX Wtau := funext fun j => funext fun k => h2h j k
  have e3h : (fun j k : Fin 512 => x3 (ix2 k (hi j))) = gateH Wtau := funext fun j => funext fun k => h3h j k
  have e4h : (fun j : Fin 512 => x4 (ix2 (0 : Fin 1) (hi j))) = vec bTau := funext h4h
  rw [e0, e1, e2h, e3h, e4h]
  rfl

/-- What point `t` writes back to the first output is its block — rows `1024 t … 1024 t + 1023` — of the specification's
    new state of the argument arrays. -/
theorem newState_flushed (c : Dev nD) (t : Fin cfg0.N) :
    (dats m 0 c).flushed 7 t = ((cfg0.win 7).blk t).view.read (Elt Ideal)
      (newState (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  rw [ValueP.flushed7]
  funext j
  obtain ⟨p, q, rfl⟩ : ∃ (p : Fin 1024) (q : Fin 512), j = ix2 p q := ⟨j 0, j 1, eq_ix2 j⟩
  have ht : t.val < 64 := lt_of_lt_of_eq t.isLt N_0
  have hp : p.val < 1024 := p.isLt
  obtain ⟨-, -, -, -, -, -, -, -, -, -, -, -, -, -, e0, e1, -⟩ := index_maps t
  have hemb : ((cfg0.win 7).blk t).view.emb (ix2 p q) = ix2 (⟨1024 * t.val + p.val, by omega⟩ : Fin 65536) q := by
    funext a
    apply Fin.ext
    match a with
    | ⟨0, _⟩ => show win0_7.index t (0 : Fin 2) * 1024 + 1 * p.val = 1024 * t.val + p.val; rw [e0]; omega
    | ⟨1, _⟩ => show win0_7.index t (1 : Fin 2) * 512 + 1 * q.val = q.val; rw [e1]; omega
  rw [View.read_apply]
  show out0_7 (iblk m c 0 t) (iblk m c 1 t) (iblk m c 2 t) (iblk m c 3 t) (iblk m c 4 t) (iblk m c 5 t) (iblk m c 6 t) (ix2 p q)
    = newState (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (((cfg0.win 7).blk t).view.emb (ix2 p q))
  rw [hemb]
  exact newState_entry (iblk m c 0 t) (iblk m c 1 t) (iblk m c 2 t) (iblk m c 3 t) (iblk m c 4 t) (iblk m c 5 t) (iblk m c 6 t) _ _ _ _ _ _ _ _ _ p q _
    (fun k => input_block m c t p k _ rfl) (fun k => state_block m c t p k _ rfl)
    (fun j k => (fusedX_block m c t k (lo j)).trans (Prefix.fusedX_lo m c k j))
    (fun j k => (fusedH_block m c t k (lo j)).trans (Prefix.fusedH_lo m c k j))
    (fun j k => (fusedX_block m c t k (hi j)).trans (Prefix.fusedX_hi m c k j))
    (fun j k => (fusedH_block m c t k (hi j)).trans (Prefix.fusedH_hi m c k j))
    (fun j => (bias_block m c t 0 (lo j)).trans (Prefix.bias_lo m c j))
    (fun j => (bias_block m c t 0 (hi j)).trans (Prefix.bias_hi m c j))
    (fun j => (scale_block m c t 0 j).trans (Prefix.scale_at m c j))
    (fun j => (shift_block m c t 0 j).trans (Prefix.shift_at m c j))

/-- What point `t` writes back to the second output is its block — rows `1024 t … 1024 t + 1023` — of the specification's
    time constants of the argument arrays. -/
theorem timeConst_flushed (c : Dev nD) (t : Fin cfg0.N) :
    (dats m 0 c).flushed 8 t = ((cfg0.win 8).blk t).view.read (Elt Ideal)
      (timeConst (m ((c : Thread nD τ).loc main_arg0)) (m ((c : Thread nD τ).loc main_arg1)) (m ((c : Thread nD τ).loc main_arg5))
        (m ((c : Thread nD τ).loc main_arg6))) := by
  rw [ValueP.flushed8]
  funext j
  obtain ⟨p, q, rfl⟩ : ∃ (p : Fin 1024) (q : Fin 512), j = ix2 p q := ⟨j 0, j 1, eq_ix2 j⟩
  have ht : t.val < 64 := lt_of_lt_of_eq t.isLt N_0
  have hp : p.val < 1024 := p.isLt
  obtain ⟨-, -, -, -, -, -, -, -, -, -, -, -, -, -, -, -, e0, e1⟩ := index_maps t
  have hemb : ((cfg0.win 8).blk t).view.emb (ix2 p q) = ix2 (⟨1024 * t.val + p.val, by omega⟩ : Fin 65536) q := by
    funext a
    apply Fin.ext
    match a with
    | ⟨0, _⟩ => show win0_8.index t (0 : Fin 2) * 1024 + 1 * p.val = 1024 * t.val + p.val; rw [e0]; omega
    | ⟨1, _⟩ => show win0_8.index t (1 : Fin 2) * 512 + 1 * q.val = q.val; rw [e1]; omega
  rw [View.read_apply]
  show out0_8 (iblk m c 0 t) (iblk m c 1 t) (iblk m c 2 t) (iblk m c 3 t) (iblk m c 4 t) (iblk m c 5 t) (iblk m c 6 t) (ix2 p q)
    = timeConst (m ((c : Thread nD τ).loc main_arg0)) (m ((c : Thread nD τ).loc main_arg1)) (m ((c : Thread nD τ).loc main_arg5))
        (m ((c : Thread nD τ).loc main_arg6)) (((cfg0.win 8).blk t).view.emb (ix2 p q))
  rw [hemb]
  exact timeConst_entry (iblk m c 0 t) (iblk m c 1 t) (iblk m c 2 t) (iblk m c 3 t) (iblk m c 4 t) (iblk m c 5 t) (iblk m c 6 t) _ _ _ _ p q _
    (fun k => input_block m c t p k _ rfl) (fun k => state_block m c t p k _ rfl)
    (fun j k => (fusedX_block m c t k (hi j)).trans (Prefix.fusedX_hi m c k j))
    (fun j k => (fusedH_block m c t k (hi j)).trans (Prefix.fusedH_hi m c k j))
    (fun j => (bias_block m c t 0 (hi j)).trans (Prefix.bias_hi m c j))

/-- An index of the first output is in point `t`'s block iff each coordinate is in the block's range on its axis. -/
theorem mem_block7 (t : Fin cfg0.N) (i : S65536x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v16_0).slice (win0_7.rect t)).set ↔ _
  rw [View.set_slice_whole, Rect.mem_set_unit]
  exact Iff.rfl

/-- The 64 blocks of 1024 rows cover the 65536 rows: row `r` is in the block of point `r / 1024`. -/
theorem cover7 (i : S65536x512.Idx) :
    ∃ t : Fin cfg0.N, (cfg0.win 7).flush t = true ∧ i ∈ ((cfg0.win 7).blk t).view.set := by
  have hi0 : (i 0).val < 65536 := (i 0).isLt
  have hi1 : (i 1).val < 512 := (i 1).isLt
  have hN : cfg0.N = 64 := N_0
  obtain ⟨t, ht⟩ : ∃ t : Fin cfg0.N, t.val = (i 0).val / 1024 := ⟨⟨(i 0).val / 1024, by omega⟩, rfl⟩
  obtain ⟨-, -, -, -, -, -, -, -, -, -, -, -, -, -, e0, e1, -⟩ := index_maps t
  refine ⟨t, flush0_7 t, ?_⟩
  rw [mem_block7]
  intro a
  match a with
  | ⟨0, _⟩ =>
    show win0_7.index t (0 : Fin 2) * 1024 ≤ (i 0).val ∧ (i 0).val < win0_7.index t (0 : Fin 2) * 1024 + 1024
    rw [e0, ht]; omega
  | ⟨1, _⟩ =>
    show win0_7.index t (1 : Fin 2) * 512 ≤ (i 1).val ∧ (i 1).val < win0_7.index t (1 : Fin 2) * 512 + 512
    rw [e1]; omega

/-- An index of the second output is in point `t`'s block iff each coordinate is in the block's range on its axis. -/
theorem mem_block8 (t : Fin cfg0.N) (i : S65536x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v16_1).slice (win0_8.rect t)).set ↔ _
  rw [View.set_slice_whole, Rect.mem_set_unit]
  exact Iff.rfl

/-- The 64 blocks of 1024 rows cover the 65536 rows: row `r` is in the block of point `r / 1024`. -/
theorem cover8 (i : S65536x512.Idx) :
    ∃ t : Fin cfg0.N, (cfg0.win 8).flush t = true ∧ i ∈ ((cfg0.win 8).blk t).view.set := by
  have hi0 : (i 0).val < 65536 := (i 0).isLt
  have hi1 : (i 1).val < 512 := (i 1).isLt
  have hN : cfg0.N = 64 := N_0
  obtain ⟨t, ht⟩ : ∃ t : Fin cfg0.N, t.val = (i 0).val / 1024 := ⟨⟨(i 0).val / 1024, by omega⟩, rfl⟩
  obtain ⟨-, -, -, -, -, -, -, -, -, -, -, -, -, -, -, -, e0, e1⟩ := index_maps t
  refine ⟨t, flush0_8 t, ?_⟩
  rw [mem_block8]
  intro a
  match a with
  | ⟨0, _⟩ =>
    show win0_8.index t (0 : Fin 2) * 1024 ≤ (i 0).val ∧ (i 0).val < win0_8.index t (0 : Fin 2) * 1024 + 1024
    rw [e0, ht]; omega
  | ⟨1, _⟩ =>
    show win0_8.index t (1 : Fin 2) * 512 ≤ (i 1).val ∧ (i 1).val < win0_8.index t (1 : Fin 2) * 512 + 512
    rw [e1]; omega

/-- The first output after the run is the specification's new state of the argument arrays. -/
theorem final7 (c : Dev nD) : (dats m 0 c).arrAt 7 cfg0.N
    = newState (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (dats m 0 c).arrAt_eq_of_cover 7 _ (fun t _ => newState_flushed m c t) cover7

/-- The second output after the run is the specification's time constants of the argument arrays. -/
theorem final8 (c : Dev nD) : (dats m 0 c).arrAt 8 cfg0.N
    = timeConst (m ((c : Thread nD τ).loc main_arg0)) (m ((c : Thread nD τ).loc main_arg1)) (m ((c : Thread nD τ).loc main_arg5))
        (m ((c : Thread nD τ).loc main_arg6)) :=
  (dats m 0 c).arrAt_eq_of_cover 8 _ (fun t _ => timeConst_flushed m c t) cover8

/-- The kernel's run with both output arrays named by the specification's functions of the argument arrays. -/
theorem run : θ_run defs (onTc (τ := τ) (main (F := Ideal))) ⟨m, fun _ => 0, ρ⟩ fun r => ∀ c : Dev nD,
      r.2.mem ((c : Thread nD τ).loc main_v16_0)
        = newState (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_v16_1)
        = timeConst (m ((c : Thread nD τ).loc main_arg0)) (m ((c : Thread nD τ).loc main_arg1)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final7 m c), (h c).2.1.trans (final8 m c), (h c).2.2⟩)
    (ValueP.run_blocks m ρ)

end Cert.KernelIdeal.Blocks

end
-- ==== Proof.Reference.lean ====
/-
  The reference's two results are the specification's two functions of the argument arrays, entry by entry.
  Each of the reference's operations is read at an index from its operands; the entry-wise lemmas below follow the
  reference in program order: the gate logit, the time constant, the candidate, the Euler step, the row mean, the
  centred entry, the reciprocal standard deviation, and last the scale and shift.
-/
import proofs.«143263_j35021163331819_2_alg».proof.Proof.Gen.ReferenceIdeal.Read
import proofs.«143263_j35021163331819_2_alg».proof.Proof.Spec
import Idealize.ShloMosaic.Lib.ValueIdx
import Idealize.ShloMosaic.Lib.IdealHost

noncomputable section

namespace Cert.ReferenceIdeal.RefValue

open Cert.ReferenceIdeal Cert.ReferenceIdeal.Gen Idealize.ShloMosaic Idealize.ShloMosaic.ValueIdx Cert.Spec

/-- The two large arrays (input and state): 65536 rows of 512 entries. -/
abbrev ARows := (⟨S65536x512, .f32⟩ : BufTy).Contents (Elt Ideal)
/-- A square weight matrix. -/
abbrev ASq := (⟨S512x512, .f32⟩ : BufTy).Contents (Elt Ideal)
/-- The gate's weight matrix, 1024 columns. -/
abbrev AWide := (⟨S512x1024, .f32⟩ : BufTy).Contents (Elt Ideal)
/-- A vector of 512 entries. -/
abbrev AVec := (⟨S512, .f32⟩ : BufTy).Contents (Elt Ideal)

/-- The gate logit at an entry: the input's row against the left half of the gate's weights, plus the state's row
    against the right half, plus the bias. -/
theorem logit_ref (x0 x1 : ARows) (x5 : AWide) (x6 : AVec) (i : S65536x512.Idx) :
    Read.val_main_v9 (F := Ideal) x0 x1 x5 x6 i
      = lin (row x0 (fst2 i)) (row x1 (fst2 i)) (gateX x5 (snd2 i)) (gateH x5 (snd2 i)) (vec x6 (snd2 i)) := by
  rw [Read.val_main_v9_apply, Read.val_main_v6_apply, Read.val_main_v3_apply, Read.val_main_v5_apply,
      Read.val_main_v8_apply, Read.val_main_v7_apply]
  simp only [Ideal.addf_def]
  unfold lin
  refine congrArg₂ (· + ·) (congrArg₂ (· + ·) (Finset.sum_congr rfl fun k _ => ?_) (Finset.sum_congr rfl fun k _ => ?_)) ?_
  · rw [Read.val_main_v2_apply, Read.val_main_v0_apply]
    refine congrArg₂ (· * ·) (congrArg x0 ?_) (congrArg x5 ?_)
    · exact funext fun a => by match a with | ⟨0, _⟩ => rfl | ⟨1, _⟩ => rfl
    · exact funext fun a => by match a with | ⟨0, _⟩ => rfl | ⟨1, _⟩ => rfl
  · rw [Read.val_main_v4_apply, Read.val_main_v1_apply]
    refine congrArg₂ (· * ·) (congrArg x1 ?_) (congrArg x5 ?_)
    · exact funext fun a => by match a with | ⟨0, _⟩ => rfl | ⟨1, _⟩ => rfl
    · exact funext fun a => Fin.ext (by match a with | ⟨0, _⟩ => rfl | ⟨1, _⟩ => exact Nat.add_comm 512 k.val)
  · exact congrArg x6 (funext fun a => by match a with | ⟨0, _⟩ => rfl)

/-- The time constant at an entry: the logistic function arrives spelled as 1 / (1 + exp (−z)). -/
theorem tau_ref (x0 x1 : ARows) (x5 : AWide) (x6 : AVec) (i : S65536x512.Idx) :
    Read.val_main_v19 (F := Ideal) x0 x1 x5 x6 i
      = tauRow (row x0 (fst2 i)) (row x1 (fst2 i)) (gateX x5) (gateH x5) (vec x6) (snd2 i) := by
  rw [Read.val_main_v19_apply, Read.val_main_v18_apply, Read.val_main_cst_2_apply, Read.val_main_v17_apply,
      Read.val_main_v16_apply, Read.val_main_cst_1_apply, Read.val_main_v15_apply, Read.val_main_v14_apply,
      Read.val_main_cst_0_apply, Read.val_main_v13_apply, Read.val_main_v12_apply, Read.val_main_cst_apply,
      Read.val_main_v11_apply, Read.val_main_v10_apply, logit_ref]
  simp only [Ideal.addf_def, Ideal.mulf_def, Ideal.hostDivf_def, Ideal.hostUnary_exp_def, Ideal.hostNegf_def,
    Ideal.negf_def, Ideal.ofBits_def, Ideal.ofBits_one_f32]
  unfold tauRow tauOf cLo cSpan Ideal.logistic
  rfl

/-- The candidate at an entry; the reference adds the bias before the state's part. -/
theorem pre_ref (x0 x1 : ARows) (x2 : ASq) (x3 : AVec) (x4 : ASq) (i : S65536x512.Idx) :
    Read.val_main_v27 (F := Ideal) x0 x1 x2 x3 x4 i
      = lin (row x0 (fst2 i)) (row x1 (fst2 i)) (sq x2 (snd2 i)) (sq x4 (snd2 i)) (vec x3 (snd2 i)) := by
  rw [Read.val_main_v27_apply, Read.val_main_v24_apply, Read.val_main_v21_apply, Read.val_main_v23_apply,
      Read.val_main_v22_apply, Read.val_main_v26_apply]
  simp only [Ideal.addf_def]
  refine Eq.trans ?_ (lin_bias_first _ _ _ _ _)
  refine congrArg₂ (· + ·) (congrArg₂ (· + ·) (Finset.sum_congr rfl fun k _ => ?_) ?_) (Finset.sum_congr rfl fun k _ => ?_)
  · rw [Read.val_main_v20_apply]
    refine congrArg₂ (· * ·) (congrArg x0 ?_) (congrArg x2 ?_)
    · exact funext fun a => by match a with | ⟨0, _⟩ => rfl | ⟨1, _⟩ => rfl
    · exact funext fun a => by match a with | ⟨0, _⟩ => rfl | ⟨1, _⟩ => rfl
  · exact congrArg x3 (funext fun a => by match a with | ⟨0, _⟩ => rfl)
  · rw [Read.val_main_v25_apply]
    refine congrArg₂ (· * ·) (congrArg x1 ?_) (congrArg x4 ?_)
    · exact funext fun a => by match a with | ⟨0, _⟩ => rfl | ⟨1, _⟩ => rfl
    · exact funext fun a => by match a with | ⟨0, _⟩ => rfl | ⟨1, _⟩ => rfl

/-- Row `r` of the state after the Euler step, before normalisation, as the specification spells it. -/
abbrev stepRow (x0 x1 : ARows) (x2 : ASq) (x3 : AVec) (x4 : ASq) (x5 : AWide) (x6 : AVec) (r : Fin 65536) :
    Fin 512 → EReal :=
  stateRow (row x0 r) (row x1 r) (sq x2) (sq x4) (gateX x5) (gateH x5) (vec x3) (vec x6)

/-- The Euler step at an entry; the reference writes the difference as −h + tanh(pre). -/
theorem step_ref (x0 x1 : ARows) (x2 : ASq) (x3 : AVec) (x4 : ASq) (x5 : AWide) (x6 : AVec) (r : Fin 65536) (j : Fin 512) :
    Read.val_main_v34 (F := Ideal) x0 x1 x2 x3 x4 x5 x6 (ix2 r j) = stepRow x0 x1 x2 x3 x4 x5 x6 r j := by
  rw [Read.val_main_v34_apply, Read.val_main_v33_apply, Read.val_main_v32_apply, Read.val_main_cst_3_apply,
      Read.val_main_v31_apply, Read.val_main_v30_apply, Read.val_main_v29_apply, Read.val_main_v28_apply,
      pre_ref, tau_ref]
  simp only [Ideal.addf_def, Ideal.mulf_def, Ideal.hostDivf_def, Ideal.hostUnary_tanh_def, Ideal.hostNegf_def,
    Ideal.negf_def, Ideal.ofBits_def]
  exact euler_neg_add _ _ _

/-- The mean of a row, read at an index of the one-column array of row means. -/
theorem mean_ref (x0 x1 : ARows) (x2 : ASq) (x3 : AVec) (x4 : ASq) (x5 : AWide) (x6 : AVec) (y : S65536x1.Idx) :
    Read.val_main_v38 (F := Ideal) x0 x1 x2 x3 x4 x5 x6 y = mean (stepRow x0 x1 x2 x3 x4 x5 x6 (fst2 y)) := by
  rw [Read.val_main_v38_apply, Read.val_main_v36_apply, Read.val_main_v35_apply, Read.val_main_cst_4_apply,
      Read.val_main_v37_apply, Read.val_main_cst_5_apply]
  simp only [Ideal.hostDivf_def, Ideal.ofBits_def, Ideal.ofBits_zero_f32, zero_add]
  unfold mean cWidth
  refine congrArg (fun s => Ideal.div s _) (Finset.sum_congr rfl fun k _ => ?_)
  refine (congrArg (Read.val_main_v34 (F := Ideal) x0 x1 x2 x3 x4 x5 x6) (?_ : _ = ix2 (fst2 y) k)).trans
    (step_ref x0 x1 x2 x3 x4 x5 x6 (fst2 y) k)
  exact funext fun a => by match a with | ⟨0, _⟩ => rfl | ⟨1, _⟩ => rfl

/-- An entry minus its row's mean (the reference forms it twice, through two broadcasts of the mean). -/
theorem centred_ref (x0 x1 : ARows) (x2 : ASq) (x3 : AVec) (x4 : ASq) (x5 : AWide) (x6 : AVec) (r : Fin 65536) (j : Fin 512) :
    Read.val_main_v40 (F := Ideal) x0 x1 x2 x3 x4 x5 x6 (ix2 r j)
      = stepRow x0 x1 x2 x3 x4 x5 x6 r j - mean (stepRow x0 x1 x2 x3 x4 x5 x6 r) := by
  rw [Read.val_main_v40_apply, Read.val_main_v39_apply, mean_ref, step_ref]
  rfl

/-- The second spelling of the centred entry. -/
theorem centred_ref' (x0 x1 : ARows) (x2 : ASq) (x3 : AVec) (x4 : ASq) (x5 : AWide) (x6 : AVec) (r : Fin 65536) (j : Fin 512) :
    Read.val_main_v47 (F := Ideal) x0 x1 x2 x3 x4 x5 x6 (ix2 r j)
      = stepRow x0 x1 x2 x3 x4 x5 x6 r j - mean (stepRow x0 x1 x2 x3 x4 x5 x6 r) := by
  rw [Read.val_main_v47_apply, Read.val_main_v46_apply, mean_ref, step_ref]
  rfl

/-- The reciprocal standard deviation of a row, read at an index of the one-column array that holds one per row. -/
theorem rstd_ref (x0 x1 : ARows) (x2 : ASq) (x3 : AVec) (x4 : ASq) (x5 : AWide) (x6 : AVec) (y : S65536x1.Idx) :
    Read.val_main_v50 (F := Ideal) x0 x1 x2 x3 x4 x5 x6 y
      = Ideal.rsqrt (mean (fun k => (stepRow x0 x1 x2 x3 x4 x5 x6 (fst2 y) k - mean (stepRow x0 x1 x2 x3 x4 x5 x6 (fst2 y)))
          * (stepRow x0 x1 x2 x3 x4 x5 x6 (fst2 y) k - mean (stepRow x0 x1 x2 x3 x4 x5 x6 (fst2 y)))) + cEps) := by
  rw [Read.val_main_v50_apply, Read.val_main_v49_apply, Read.val_main_v48_apply, Read.val_main_cst_8_apply,
      Read.val_main_v45_apply, Read.val_main_v43_apply, Read.val_main_v42_apply, Read.val_main_cst_6_apply,
      Read.val_main_v44_apply, Read.val_main_cst_7_apply]
  simp only [Ideal.hostDivf_def, Ideal.addf_def, Ideal.hostUnary_rsqrt_def, Ideal.ofBits_def, Ideal.ofBits_zero_f32, zero_add]
  unfold cEps
  refine congrArg (fun s => Ideal.rsqrt (s + _)) ?_
  unfold mean cWidth
  refine congrArg (fun s => Ideal.div s _) (Finset.sum_congr rfl fun k _ => ?_)
  rw [Read.val_main_v41_apply]
  simp only [Ideal.mulf_def]
  have h := (congrArg (Read.val_main_v40 (F := Ideal) x0 x1 x2 x3 x4 x5 x6)
      (show Read.idx_main_v42 (Read.idx_main_v43 y) k = ix2 (fst2 y) k from
        funext fun a => by match a with | ⟨0, _⟩ => rfl | ⟨1, _⟩ => rfl)).trans
    (centred_ref x0 x1 x2 x3 x4 x5 x6 (fst2 y) k)
  rw [h]
  rfl

/-- The reference's first result is the normalised new state. -/
theorem newState_ref (x0 x1 : (⟨S65536x512, .f32⟩ : BufTy).Contents (Elt Ideal)) (x2 : (⟨S512x512, .f32⟩ : BufTy).Contents (Elt Ideal))
    (x3 : (⟨S512, .f32⟩ : BufTy).Contents (Elt Ideal)) (x4 : (⟨S512x512, .f32⟩ : BufTy).Contents (Elt Ideal))
    (x5 : (⟨S512x1024, .f32⟩ : BufTy).Contents (Elt Ideal)) (x6 x7 x8 : (⟨S512, .f32⟩ : BufTy).Contents (Elt Ideal)) :
    Read.val_main_v58 (F := Ideal) x0 x1 x2 x3 x4 x5 x6 x7 x8 = newState x0 x1 x2 x3 x4 x5 x6 x7 x8 := by
  funext i
  obtain ⟨r, j, rfl⟩ : ∃ (r : Fin 65536) (j : Fin 512), i = ix2 r j := ⟨fst2 i, snd2 i, eq_ix2 i⟩
  rw [Read.val_main_v58_apply, Read.val_main_v55_apply, Read.val_main_v52_apply, centred_ref', Read.val_main_v51_apply,
      rstd_ref, Read.val_main_v54_apply, Read.val_main_v53_apply, Read.val_main_v57_apply, Read.val_main_v56_apply]
  simp only [Ideal.addf_def, Ideal.mulf_def]
  unfold newState layerNorm
  refine congrArg₂ (· + ·) (congrArg₂ (· * ·) rfl (congrArg x7 ?_)) (congrArg x8 ?_)
  · exact funext fun a => by match a with | ⟨0, _⟩ => rfl
  · exact funext fun a => by match a with | ⟨0, _⟩ => rfl

/-- The reference's second result is the array of time constants. -/
theorem timeConst_ref (x0 x1 : (⟨S65536x512, .f32⟩ : BufTy).Contents (Elt Ideal)) (x5 : (⟨S512x1024, .f32⟩ : BufTy).Contents (Elt Ideal))
    (x6 : (⟨S512, .f32⟩ : BufTy).Contents (Elt Ideal)) :
    Read.val_main_v19 (F := Ideal) x0 x1 x5 x6 = timeConst x0 x1 x5 x6 := by
  funext i
  exact tau_ref x0 x1 x5 x6 i

end Cert.ReferenceIdeal.RefValue

end
-- ==== Proof.lean ====
/-
  A fused liquid time-constant cell with a layer norm, as a blocked kernel, against the same cell written with whole-array
  operations.

  Per row of 512 entries both programs compute `y = h + dt · (tanh(x·W_inᵀ + h·W_recᵀ + b_in) − h) / τ` with
  `τ = lo + span · σ(x·W_τ[:, :512]ᵀ + h·W_τ[:, 512:]ᵀ + b_τ)`, and return the layer norm of `y` (scale γ, shift β) and `τ`
  (Proof/Spec.lean states this once, row by row). They differ in arrangement only. The kernel concatenates the weights of the
  two affine maps into one [512, 1024] matrix per operand, so that 64 blocks of 1024 rows each take two matrix products instead
  of four, and splits the product's columns afterwards; it rounds the matrix operands to bf16, which is the identity on the
  extended reals; it adds the candidate's bias after the state's product where the reference adds it before, and writes
  `f − h` where the reference writes `−h + f`. Commutativity and associativity of `+` on the extended reals join the two
  sides, so the precondition (finite inputs) is never opened.

  Proof/Payload.lean reads the kernel body's stored blocks at an entry as the specification's row functions of the loaded
  blocks; Proof/HostPrefix.lean reads the fused arrays the host operations build, entry by entry, in terms of the arguments;
  Proof/Blocks.lean goes from blocks to the whole output arrays; Proof/Reference.lean reads the reference's operations as the
  same functions. The three frames are the generated frame certificates (the reference's: its generated run, results dropped);
  the idealization rewrote nothing, so `preserves` is trivial.
-/
import proofs.«143263_j35021163331819_2_alg».proof.Defs
import proofs.«143263_j35021163331819_2_alg».proof.Proof.Gen.Kernel
import proofs.«143263_j35021163331819_2_alg».proof.Proof.Gen.Kernel.Frame
import proofs.«143263_j35021163331819_2_alg».proof.Proof.Gen.KernelIdeal
import proofs.«143263_j35021163331819_2_alg».proof.Proof.Gen.KernelIdeal.Frame
import proofs.«143263_j35021163331819_2_alg».proof.Proof.Gen.ReferenceIdeal
import proofs.«143263_j35021163331819_2_alg».proof.Proof.Gen.ReferenceIdeal.Run
import proofs.«143263_j35021163331819_2_alg».proof.Proof.Gen.ReferenceIdeal.Read
import proofs.«143263_j35021163331819_2_alg».proof.Proof.Gen.Pre_finite_inputs
import proofs.«143263_j35021163331819_2_alg».proof.Proof.Blocks
import proofs.«143263_j35021163331819_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the normalised new state and the time constants as the specification's two functions of the
    argument arrays, which agree. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v58_eq, Cert.ReferenceIdeal.RefValue.newState_ref, a0, a1, a2, a3, a4, a5, a6, a7, a8]
  · rw [Cert.ReferenceIdeal.Read.val_main_v19_eq, Cert.ReferenceIdeal.RefValue.timeConst_ref, a0, a1, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
